-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S2048 : Shape := ⟨1, ![2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S8192x4096 .f32) (main_arg1 : FVec F S4096x2048 .f32) (main_arg2 : FVec F S2048 .f32) (main_arg3 : FVec F S4096x2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Kernel.lean ====
abbrev S8192x4096 : Shape := ⟨2, ![8192, 4096]⟩
abbrev S4096x2048 : Shape := ⟨2, ![4096, 2048]⟩
abbrev S2048 : Shape := ⟨1, ![2048]⟩
abbrev S512x2048 : Shape := ⟨2, ![512, 2048]⟩
abbrev S1x2048 : Shape := ⟨2, ![1, 2048]⟩
abbrev S8192x2048 : Shape := ⟨2, ![8192, 2048]⟩
abbrev S256x4096 : Shape := ⟨2, ![256, 4096]⟩
abbrev S256x2048 : Shape := ⟨2, ![256, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S256x4096, .f32⟩
  | .local _ .vmem, ⟨7, _⟩ => ⟨S256x4096, .f32⟩
  | .local _ .vmem, ⟨8, _⟩ => ⟨S4096x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S2048_S1x2048 : S2048.ShapeCasts S1x2048
  inb_S256x4096_S256x4096_0_0 : ∀ a, (![0, 0] : Fin 2 → Nat) a + S256x4096.size a ≤ S256x4096.size a
  h_S256x4096 : 0 < S256x4096.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S256x4096_S4096x2048_S256x2048_1_0_0_1_n_n_wf : DotDims.WF S256x4096 S4096x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .bf16 = 32 ∨ (Rect.block (s := S4096x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x2048.size a ≤ S4096x2048.size a
  hwx1_1 : ∀ i : grid1.Coords, EltTy.bits .bf16 = 32 ∨ (Rect.block (s := S4096x2048) S4096x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S8192x2048.size a
  hwx1_3 : ∀ i : grid1.Coords, EltTy.bits .f32 = 32 ∨ (Rect.block (s := S8192x2048) S256x2048.size (cc1_transform_3 i) (hinb1_3 i)).WholeWords (EltTy.packing .f32)

variable [Facts₀]

def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x2048 : Shape := ⟨2, ![4096, 2048]⟩
abbrev S2048 : Shape := ⟨1, ![2048]⟩
abbrev S8192x2048 : Shape := ⟨2, ![8192, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x4096_S4096x2048_S8192x2048_1_0_0_1_n_n_wf : DotDims.WF S8192x4096 S4096x2048 S8192x2048 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.Spec.lean ====
/-
  The function both programs compute, stated once over the argument arrays.

  A dense layer whose weight is masked entry by entry: the weight `w` (4096 × 2048) is multiplied by the mask
  `mk` of the same shape, the input `a` (8192 × 4096) is multiplied by the masked weight as matrices, and the
  bias `b` (2048 entries) is added to every row:

      out (p, q) = (∑ k < 4096, a (p, k) · (w (k, q) · mk (k, q))) + b q.

  Everything is over the extended reals, where a sum over a finite index set is well defined in any order; no
  law beyond re-indexing the sum is used, so finiteness of the inputs plays no part.
-/
import Idealize.ShloMosaic.Lib.ValueIdx

noncomputable section

open scoped BigOperators

namespace Cert.MaskedDense

open Idealize.ShloMosaic Idealize.ShloMosaic.ValueIdx

/-- The row of a matrix index, as a number below the row count. -/
abbrev row {n0 n1 : Nat} (i : (⟨2, ![n0, n1]⟩ : Shape).Idx) : Fin n0 := ⟨(i 0).val, idx2_lt0 i⟩
/-- The column of a matrix index, as a number below the column count. -/
abbrev col {n0 n1 : Nat} (i : (⟨2, ![n0, n1]⟩ : Shape).Idx) : Fin n1 := ⟨(i 1).val, idx2_lt1 i⟩

/-- A matrix index is its row and column. -/
theorem eq_row_col {n0 n1 : Nat} (i : (⟨2, ![n0, n1]⟩ : Shape).Idx) : i = ix2 (row i) (col i) := by
  funext a; match a with | ⟨0, _⟩ => rfl | ⟨1, _⟩ => rfl

/-- The weight with the mask applied, entry by entry. -/
def maskedWeight (w mk : (⟨2, ![4096, 2048]⟩ : Shape).Idx → EReal) : (⟨2, ![4096, 2048]⟩ : Shape).Idx → EReal :=
  fun j => w j * mk j

/-- The input times a weight matrix `v`, plus the bias on every row. -/
def dense (a : (⟨2, ![8192, 4096]⟩ : Shape).Idx → EReal) (v : (⟨2, ![4096, 2048]⟩ : Shape).Idx → EReal)
    (b : (⟨1, ![2048]⟩ : Shape).Idx → EReal) : (⟨2, ![8192, 2048]⟩ : Shape).Idx → EReal :=
  fun i => (∑ k : Fin 4096, a (ix2 (row i) k) * v (ix2 k (col i))) + b (ix1 (col i))

/-- The same with the bias kept as a one-row matrix (1 × 2048), as a block of rows meets it. -/
def denseRow (a : (⟨2, ![8192, 4096]⟩ : Shape).Idx → EReal) (v : (⟨2, ![4096, 2048]⟩ : Shape).Idx → EReal)
    (b : (⟨2, ![1, 2048]⟩ : Shape).Idx → EReal) : (⟨2, ![8192, 2048]⟩ : Shape).Idx → EReal :=
  fun i => (∑ k : Fin 4096, a (ix2 (row i) k) * v (ix2 k (col i))) + b (ix2 (0 : Fin 1) (col i))

/-- A bias laid out as one row is the bias at the column. -/
theorem denseRow_eq (a : (⟨2, ![8192, 4096]⟩ : Shape).Idx → EReal) (v : (⟨2, ![4096, 2048]⟩ : Shape).Idx → EReal)
    (b : (⟨1, ![2048]⟩ : Shape).Idx → EReal) : denseRow a v (fun j => b (ix1 (col j))) = dense a v b := rfl

/-- The masked dense layer: the input times the masked weight, plus the bias. -/
def maskedDense (a : (⟨2, ![8192, 4096]⟩ : Shape).Idx → EReal) (w mk : (⟨2, ![4096, 2048]⟩ : Shape).Idx → EReal)
    (b : (⟨1, ![2048]⟩ : Shape).Idx → EReal) : (⟨2, ![8192, 2048]⟩ : Shape).Idx → EReal :=
  dense a (maskedWeight w mk) b

end Cert.MaskedDense

end
-- ==== Proof.RefSide.lean ====
/-
  The reference computes the masked dense layer: its five host operations — the product of weight and mask, the
  matrix product with the input, the bias broadcast in two steps, the sum — read at an index are the
  specification's formula, once the index functions of the matrix product and of the broadcasts are written by
  row and column.
-/
import proofs.«104447_j4827543241279_2_alg».proof.Proof.Gen.ReferenceIdeal.Read
import proofs.«104447_j4827543241279_2_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.MaskedDense

/-- The reference's last stage is the masked dense layer of its four arguments. -/
theorem reference_eq (x0 : S8192x4096.Idx → EReal) (x1 x3 : S4096x2048.Idx → EReal) (x2 : S2048.Idx → EReal) :
    val_main_v4 (F := Ideal) x0 x1 x2 x3 = maskedDense x0 x1 x3 x2 := by
  funext i
  -- the matrix product reads the input along row `i 0` and the weight down column `i 1`
  have el : ∀ k, lidx_main_v1 i k = ix2 (row i) k := fun k =>
    funext fun a => Fin.ext (by match a with | ⟨0, _⟩ => rfl | ⟨1, _⟩ => rfl)
  have er : ∀ k, ridx_main_v1 i k = ix2 k (col i) := fun k =>
    funext fun a => Fin.ext (by match a with | ⟨0, _⟩ => rfl | ⟨1, _⟩ => rfl)
  -- the two broadcasts read the bias at column `i 1`
  have eb : idx_main_v2 (idx_main_v3 i) = ix1 (col i) :=
    funext fun a => Fin.ext (by match a with | ⟨0, _⟩ => rfl)
  rw [val_main_v4_apply, val_main_v1_apply, val_main_v3_apply, val_main_v2_apply, eb]
  simp only [el, er, val_main_v0_apply, Ideal.addf_def, Ideal.mulf_def]
  rfl

end Cert.ReferenceIdeal.RefValue

end
-- ==== Proof.KernelRun.lean ====
/-
  The kernel's run with its result named.

  The program is two launches with one host reshape between them. The thread state at the end of the last
  segment holds every unscoped buffer at the contents the fold through the segments gives it; read at the result
  buffer, that is what the second launch's write-backs leave in its output window's array. The arguments are
  never written.
-/
import proofs.«104447_j4827543241279_2_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at what the
    second launch's write-backs leave in its output array, and the four arguments end as launched. -/
theorem run_out : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Out

end
-- ==== Proof.KernelBody.lean ====
/-
  The two kernel bodies read at an index, at the ideal values.

  The masking body multiplies its two loaded blocks entry by entry (the change of float format after it is the
  identity on extended reals). The matrix body multiplies its loaded input block (256 × 4096) by the whole
  masked weight (4096 × 2048) into a zero accumulator — at an entry, the sum over the contracted axis of the
  products — and adds the bias row (1 × 2048) broadcast down the 256 rows.
-/
import proofs.«104447_j4827543241279_2_alg».proof.Proof.Gen.KernelIdeal.Skeleton
import proofs.«104447_j4827543241279_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.MaskedDense

/-- The masking body's stored value at an entry: the product of the two loaded entries. -/
theorem mask_apply (x0 x1 : Vec Ideal S512x2048 .f32) (j : S512x2048.Idx) :
    k0_pay1 (F := Ideal) x0 x1 j = x0 j * x1 j := rfl

/-- One position of the masked weight from one block of rows. If the loaded weight block agrees with an array
    `Wt` and the loaded mask block with `Mk` at the position, the masking body's value at the block entry `j` is
    the masked weight of `Wt`, `Mk` at the array position `i`. -/
theorem block_masked (Wt Mk : S4096x2048.Idx → EReal) (x0 x1 : Vec Ideal S512x2048 .f32)
    (j : S512x2048.Idx) (i : S4096x2048.Idx) (h0 : x0 j = Wt i) (h1 : x1 j = Mk i) :
    k0_pay1 (F := Ideal) x0 x1 j = maskedWeight Wt Mk i := by
  rw [mask_apply, h0, h1]
  rfl

/-- The matrix product's left operand is read along the output entry's row … -/
theorem lhs_row (j : S256x2048.Idx) (q : dot_S256x4096_S4096x2048_S256x2048_1_0_0_1_n_n.contr.Idx) :
    (dot_S256x4096_S4096x2048_S256x2048_1_0_0_1_n_n.lhsIdx j q 0).val = (j 0).val := by
  unfold DotDims.lhsIdx
  rw [dif_neg (show ¬(0 : Fin S256x4096.rank) ∈ dot_S256x4096_S4096x2048_S256x2048_1_0_0_1_n_n.lhsBatch by decide),
    dif_pos (show (0 : Fin S256x4096.rank) ∈ dot_S256x4096_S4096x2048_S256x2048_1_0_0_1_n_n.lhsNonContracting by decide)]
  rfl
/-- … at the contracted position, -/
theorem lhs_contr (j : S256x2048.Idx) (q : dot_S256x4096_S4096x2048_S256x2048_1_0_0_1_n_n.contr.Idx) :
    (dot_S256x4096_S4096x2048_S256x2048_1_0_0_1_n_n.lhsIdx j q 1).val = (q ⟨0, by decide⟩).val :=
  dot_S256x4096_S4096x2048_S256x2048_1_0_0_1_n_n.lhsIdx_val_of_single rfl j q
/-- and its right operand at the contracted position … -/
theorem rhs_contr (j : S256x2048.Idx) (q : dot_S256x4096_S4096x2048_S256x2048_1_0_0_1_n_n.contr.Idx) :
    (dot_S256x4096_S4096x2048_S256x2048_1_0_0_1_n_n.rhsIdx j q 0).val = (q ⟨0, by decide⟩).val :=
  dot_S256x4096_S4096x2048_S256x2048_1_0_0_1_n_n.rhsIdx_val_of_single rfl j q
/-- … down the output entry's column. -/
theorem rhs_col (j : S256x2048.Idx) (q : dot_S256x4096_S4096x2048_S256x2048_1_0_0_1_n_n.contr.Idx) :
    (dot_S256x4096_S4096x2048_S256x2048_1_0_0_1_n_n.rhsIdx j q 1).val = (j 1).val := by
  unfold DotDims.rhsIdx
  rw [dif_neg (show ¬(1 : Fin S4096x2048.rank) ∈ dot_S256x4096_S4096x2048_S256x2048_1_0_0_1_n_n.rhsBatch by decide),
    dif_pos (show (1 : Fin S4096x2048.rank) ∈ dot_S256x4096_S4096x2048_S256x2048_1_0_0_1_n_n.rhsNonContracting by decide)]
  rfl

/-- The block product into a zero accumulator, at an entry: the sum over the 4096 contracted positions of the
    input block's row times the weight's column. -/
theorem product_apply (x0 : FVec Ideal S256x4096 .f32) (x1 : FVec Ideal S4096x2048 .bf16) (j : S256x2048.Idx) :
    matmul (F := Ideal) dot_S256x4096_S4096x2048_S256x2048_1_0_0_1_n_n none (truncf .bf16 x0 bitsLt_bf16_f32) x1
        (constant S256x2048 .f32 0x00000000#32) j
      = ∑ k : Fin 4096, x0 (ix2 (row j) k) * x1 (ix2 k (col j)) := by
  simp only [matmul]
  rw [Ideal.matmul_constant_zero_apply,
    ← Equiv.sum_comp (contrEquiv1 dot_S256x4096_S4096x2048_S256x2048_1_0_0_1_n_n 4096 rfl rfl).symm]
  refine Finset.sum_congr rfl fun k _ => ?_
  have hk := contrEquiv1_symm_val dot_S256x4096_S4096x2048_S256x2048_1_0_0_1_n_n 4096 rfl rfl k
  have el : dot_S256x4096_S4096x2048_S256x2048_1_0_0_1_n_n.lhsIdx j
      ((contrEquiv1 dot_S256x4096_S4096x2048_S256x2048_1_0_0_1_n_n 4096 rfl rfl).symm k) = ix2 (row j) k :=
    funext fun a => Fin.ext (by
      match a with
      | ⟨0, _⟩ => exact lhs_row _ _
      | ⟨1, _⟩ => exact (lhs_contr _ _).trans hk)
  have er : dot_S256x4096_S4096x2048_S256x2048_1_0_0_1_n_n.rhsIdx j
      ((contrEquiv1 dot_S256x4096_S4096x2048_S256x2048_1_0_0_1_n_n 4096 rfl rfl).symm k) = ix2 k (col j) :=
    funext fun a => Fin.ext (by
      match a with
      | ⟨0, _⟩ => exact (rhs_contr _ _).trans hk
      | ⟨1, _⟩ => exact rhs_col _ _)
  rw [el, er]
  rfl

/-- The bias row broadcast down the rows, at an entry: the bias at the entry's column. -/
theorem bias_apply (x2 : Vec Ideal S1x2048 .f32) (j : S256x2048.Idx) :
    broadcastTo S256x2048 x2 broadcasts_S1x2048_S256x2048 j = x2 (ix2 (0 : Fin 1) (col j)) :=
  broadcastTo_apply x2 broadcasts_S1x2048_S256x2048 j (ix2 (0 : Fin 1) (col j)) (fun a => match a with
    | ⟨0, _⟩ => by show 0 = if (1 : Nat) = 1 then 0 else _; rw [if_pos rfl]
    | ⟨1, _⟩ => by show (j 1).val = if (2048 : Nat) = 1 then 0 else _; rw [if_neg (by decide)]; rfl)

/-- The matrix body's stored value at an entry: the row-by-column sum plus the bias at the column. -/
theorem matmul_apply (x0 : Vec Ideal S256x4096 .f32) (x1 : Vec Ideal S4096x2048 .bf16) (x2 : Vec Ideal S1x2048 .f32)
    (j : S256x2048.Idx) :
    k1_pay1 (F := Ideal) x0 x1 x2 j
      = (∑ k : Fin 4096, x0 (ix2 (row j) k) * x1 (ix2 k (col j))) + x2 (ix2 (0 : Fin 1) (col j)) := by
  unfold k1_pay1
  show matmul (F := Ideal) (φ₂ := .bf16) dot_S256x4096_S4096x2048_S256x2048_1_0_0_1_n_n none (truncf .bf16 x0 bitsLt_bf16_f32)
        (shapeCast S4096x2048 x1 shapeCasts_S4096x2048_S4096x2048) (constant S256x2048 .f32 0x00000000#32) j
      + broadcastTo S256x2048 (shapeCast S1x2048 x2 shapeCasts_S1x2048_S1x2048) broadcasts_S1x2048_S256x2048 j = _
  rw [shapeCast_self, shapeCast_self]
  exact congrArg₂ (· + ·) (product_apply x0 x1 j) (bias_apply x2 j)

/-- One output position of the dense layer from one block of rows. If the loaded input block agrees with an array
    `A` along the position's row, the loaded weight with `W` down its column, and the loaded bias row with `B` at its
    column, the matrix body's value at the block entry `j` is the dense layer of `A`, `W`, `B` at the array
    position `i`. -/
theorem block_dense (A : S8192x4096.Idx → EReal) (W : S4096x2048.Idx → EReal) (B : S1x2048.Idx → EReal)
    (x0 : Vec Ideal S256x4096 .f32) (x1 : Vec Ideal S4096x2048 .bf16) (x2 : Vec Ideal S1x2048 .f32)
    (j : S256x2048.Idx) (i : S8192x2048.Idx)
    (h0 : ∀ k : Fin 4096, x0 (ix2 (row j) k) = A (ix2 (row i) k))
    (h1 : ∀ k : Fin 4096, x1 (ix2 k (col j)) = W (ix2 k (col i)))
    (h2 : x2 (ix2 (0 : Fin 1) (col j)) = B (ix2 (0 : Fin 1) (col i))) :
    k1_pay1 (F := Ideal) x0 x1 x2 j = denseRow A W B i := by
  rw [matmul_apply, h2]
  unfold denseRow
  exact congrArg (· + B (ix2 (0 : Fin 1) (col i))) (Finset.sum_congr rfl fun k _ => by rw [h0 k, h1 k])

end Cert.KernelIdeal.Body

end
-- ==== Proof.MaskRegion.lean ====
/-
  The first launch: the masked weight.

  Its grid has 8 points; point `t` loads rows 512·t … 512·t + 511 of the weight and of the mask, multiplies them
  entry by entry and writes the product back to the same rows of its output array. Every window uses the same
  block index (t, 0), so the entry a point writes at a position is the product of the weight and the mask at that
  position: each point writes back its block of ONE whole-array function, the masked weight. The 8 blocks of 512
  rows tile the 4096 rows, so after the launch the output array IS the masked weight of the arrays the launch
  found.
-/
import proofs.«104447_j4827543241279_2_alg».proof.Proof.Gen.KernelIdeal.Frame
import proofs.«104447_j4827543241279_2_alg».proof.Proof.KernelBody
import proofs.«104447_j4827543241279_2_alg».proof.Proof.Spec
import Idealize.ShloMosaic.Lib.Pipeline.Value

set_option maxRecDepth 16384

noncomputable section

namespace Cert.KernelIdeal.Mask

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MaskedDense

-- the buffer contents the launch finds
variable (V : (c : Dev nD) → (b : Ref sig .tc) → Buf (Elt Ideal) ((c : Thread nD τ).loc b))

theorem origin_zero : (![0, 0] : Fin 2 → Nat) = fun _ => 0 := funext fun a => by fin_cases a <;> rfl

/-- The three windows' block indices at a point: all three are (t, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is its block of the masked weight of the arrays the launch found. -/
theorem flushed_eq (c : Dev nD) (t : Fin cfg0.N) :
    (dat0 V c).flushed 2 t
      = ((cfg0.win 2).blk t).view.read (Elt Ideal) (maskedWeight (V c main_arg1) (V c main_arg3)) := by
  show (cfg0.win 2).cut (grid0.coords t) ((dat0 V c).after 2 t) = _
  rw [after0_2]
  unfold out0_2
  rw [View.canon_unit_zero origin_zero]
  simp only [View.ld_unit_zero (S := S512x2048) origin_zero]
  obtain ⟨e0, e1, e2, e3, e4, e5⟩ := block_index t
  refine funext fun (j : S512x2048.Idx) => ?_
  show k0_pay1 (F := Ideal) (iblk0 V c 0 t) (iblk0 V c 1 t) j
    = maskedWeight (V c main_arg1) (V c main_arg3) (((cfg0.win 2).blk t).view.emb j)
  refine Body.block_masked (V c main_arg1) (V c main_arg3) (iblk0 V c 0 t) (iblk0 V c 1 t)
    j (((cfg0.win 2).blk t).view.emb j) ?_ ?_
  · -- the weight block's entry is the array's entry at the same position
    show V c main_arg1 (((cfg0.win 0).blk t).view.emb j) = V c main_arg1 (((cfg0.win 2).blk t).view.emb j)
    refine congrArg (V c main_arg1) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  · -- and so is the mask block's
    show V c main_arg3 (((cfg0.win 1).blk t).view.emb j) = V c main_arg3 (((cfg0.win 2).blk t).view.emb j)
    refine congrArg (V c main_arg3) (funext fun a => Fin.ext ?_)
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * (j 1).val = win0_2.index t (1 : Fin 2) * 2048 + 1 * (j 1).val; omega

/-- A position of the output array is in point `t`'s block iff each coordinate is in the block's range. -/
theorem mem_blk (t : Fin cfg0.N) (i : S4096x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v0).slice (win0_2.rect t)).set ↔ _
  rw [View.set_slice_whole, Rect.mem_set_unit]
  exact Iff.rfl

/-- Every position is in the block of the point its row falls to: row r is covered by point r / 512. -/
theorem covered (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  have hN : cfg0.N = 8 := N_0
  let t : Fin cfg0.N := ⟨(i 0).val / 512, by rw [hN]; omega⟩
  have ht : t.val = (i 0).val / 512 := rfl
  obtain ⟨e0, e1, e2, e3, e4, e5⟩ := block_index t
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- After the launch its output array is the masked weight of the arrays it found. -/
theorem final (c : Dev nD) :
    (dat0 V c).arrAt 2 cfg0.N = maskedWeight (V c main_arg1) (V c main_arg3) :=
  (dat0 V c).arrAt_eq_of_cover 2 (maskedWeight (V c main_arg1) (V c main_arg3))
    (fun t _ => flushed_eq V c t) covered

end Cert.KernelIdeal.Mask

end
-- ==== Proof.ProductRegion.lean ====
/-
  The second launch: the input times a weight matrix, plus the bias row.

  Its grid has 32 points; point `t` loads rows 256·t … 256·t + 255 of the input (all 4096 columns), the WHOLE
  weight array and the whole one-row bias (both at block index (0, 0) at every point), and writes rows
  256·t … 256·t + 255 of its output. An output entry in row r and column q is the sum over the contracted
  position k of input (r, k) · weight (k, q), plus bias (0, q): the body reads the input only along the entry's own
  row and the weight only down its own column, so each point writes back its block of ONE whole-array function
  of the arrays the launch found. The 32 blocks of 256 rows tile the 8192 rows.
-/
import proofs.«104447_j4827543241279_2_alg».proof.Proof.Gen.KernelIdeal.Frame
import proofs.«104447_j4827543241279_2_alg».proof.Proof.KernelBody
import proofs.«104447_j4827543241279_2_alg».proof.Proof.Spec
import Idealize.ShloMosaic.Lib.Pipeline.Value

set_option maxRecDepth 16384

noncomputable section

namespace Cert.KernelIdeal.Product

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MaskedDense

-- the buffer contents the launch finds
variable (V : (c : Dev nD) → (b : Ref sig .tc) → Buf (Elt Ideal) ((c : Thread nD τ).loc b))

theorem origin_zero : (![0, 0] : Fin 2 → Nat) = fun _ => 0 := funext fun a => by fin_cases a <;> rfl

/-- The four windows' block indices at a point: the input and the output move with the point, (t, 0); the weight
    and the bias stay at (0, 0). -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is its block of the dense layer of the arrays the launch found. -/
theorem flushed_eq (c : Dev nD) (t : Fin cfg1.N) :
    (dat1 V c).flushed 3 t
      = ((cfg1.win 3).blk t).view.read (Elt Ideal) (denseRow (V c main_arg0) (V c main_v0) (V c main_v1)) := by
  show (cfg1.win 3).cut (grid1.coords t) ((dat1 V c).after 3 t) = _
  rw [after1_3]
  unfold out1_3
  rw [View.canon_unit_zero origin_zero]
  simp only [View.ld_unit_zero (S := S256x4096) origin_zero, View.ld_unit_zero (S := S4096x2048) origin_zero,
    View.ld_unit_zero (S := S1x2048) origin_zero]
  obtain ⟨a0, a1, w0, w1, b0, b1, o0, o1⟩ := block_index t
  refine funext fun (j : S256x2048.Idx) => ?_
  show k1_pay1 (F := Ideal) (iblk1 V c 0 t) (iblk1 V c 1 t) (iblk1 V c 2 t) j
    = denseRow (V c main_arg0) (V c main_v0) (V c main_v1) (((cfg1.win 3).blk t).view.emb j)
  refine Body.block_dense (V c main_arg0) (V c main_v0) (V c main_v1) (iblk1 V c 0 t) (iblk1 V c 1 t) (iblk1 V c 2 t)
    j (((cfg1.win 3).blk t).view.emb j) ?_ ?_ ?_
  · -- the input block's row is the array's row, at every contracted position
    intro k
    show V c main_arg0 (((cfg1.win 0).blk t).view.emb (ix2 (row j) k))
      = V c main_arg0 (ix2 (row (((cfg1.win 3).blk t).view.emb j)) k)
    refine congrArg (V c main_arg0) (funext fun a => Fin.ext ?_)
    match a with
    | ⟨0, _⟩ => show win1_0.index t (0 : Fin 2) * 256 + 1 * (j 0).val = win1_3.index t (0 : Fin 2) * 256 + 1 * (j 0).val; omega
    | ⟨1, _⟩ => show win1_0.index t (1 : Fin 2) * 4096 + 1 * k.val = k.val; omega
  · -- the weight is loaded whole: its column is the array's column
    intro k
    show V c main_v0 (((cfg1.win 1).blk t).view.emb (ix2 k (col j)))
      = V c main_v0 (ix2 k (col (((cfg1.win 3).blk t).view.emb j)))
    refine congrArg (V c main_v0) (funext fun a => Fin.ext ?_)
    match a with
    | ⟨0, _⟩ => show win1_1.index t (0 : Fin 2) * 4096 + 1 * k.val = k.val; omega
    | ⟨1, _⟩ => show win1_1.index t (1 : Fin 2) * 2048 + 1 * (j 1).val = win1_3.index t (1 : Fin 2) * 2048 + 1 * (j 1).val; omega
  · -- the bias row is loaded whole
    show V c main_v1 (((cfg1.win 2).blk t).view.emb (ix2 (0 : Fin 1) (col j)))
      = V c main_v1 (ix2 (0 : Fin 1) (col (((cfg1.win 3).blk t).view.emb j)))
    refine congrArg (V c main_v1) (funext fun a => Fin.ext ?_)
    match a with
    | ⟨0, _⟩ => show win1_2.index t (0 : Fin 2) * 1 + 1 * 0 = 0; omega
    | ⟨1, _⟩ => show win1_2.index t (1 : Fin 2) * 2048 + 1 * (j 1).val = win1_3.index t (1 : Fin 2) * 2048 + 1 * (j 1).val; omega

/-- A position of the output array is in point `t`'s block iff each coordinate is in the block's range. -/
theorem mem_blk (t : Fin cfg1.N) (i : S8192x2048.Idx) :
    i ∈ ((cfg1.win 3).blk t).view.set ↔ ∀ a : Fin 2, win1_3.index t a * S256x2048.size a ≤ (i a).val
      ∧ (i a).val < win1_3.index t a * S256x2048.size a + S256x2048.size a := by
  show i ∈ ((View.whole main_v2).slice (win1_3.rect t)).set ↔ _
  rw [View.set_slice_whole, Rect.mem_set_unit]
  exact Iff.rfl

/-- Every position is in the block of the point its row falls to: row r is covered by point r / 256. -/
theorem covered (i : S8192x2048.Idx) :
    ∃ t : Fin cfg1.N, (cfg1.win 3).flush t = true ∧ i ∈ ((cfg1.win 3).blk t).view.set := by
  have hi0 : (i 0).val < 8192 := (i 0).isLt
  have hi1 : (i 1).val < 2048 := (i 1).isLt
  have hN : cfg1.N = 32 := N_1
  let t : Fin cfg1.N := ⟨(i 0).val / 256, by rw [hN]; omega⟩
  have ht : t.val = (i 0).val / 256 := rfl
  obtain ⟨a0, a1, w0, w1, b0, b1, o0, o1⟩ := block_index t
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 2048 ≤ (i 1).val ∧ (i 1).val < win1_3.index t (1 : Fin 2) * 2048 + 2048; omega

/-- After the launch its output array is the dense layer of the arrays it found. -/
theorem final (c : Dev nD) :
    (dat1 V c).arrAt 3 cfg1.N = denseRow (V c main_arg0) (V c main_v0) (V c main_v1) :=
  (dat1 V c).arrAt_eq_of_cover 3 (denseRow (V c main_arg0) (V c main_v0) (V c main_v1))
    (fun t _ => flushed_eq V c t) covered

end Cert.KernelIdeal.Product

end
-- ==== Proof.KernelValue.lean ====
/-
  The kernel's result as one function of its arguments.

  What the second launch finds, buffer by buffer: the input is the argument as launched (nothing wrote it); the
  weight array is what the first launch left — the masked weight of the launched weight and mask (the host
  reshape between the launches does not touch it); the bias row is the host reshape of the launched bias, whose
  entry (0, q) is the bias at q (row-major position q on both sides). The second launch leaves the dense layer
  of those three, which is therefore the masked dense layer of the four launched arguments.
-/
import proofs.«104447_j4827543241279_2_alg».proof.Proof.Gen.KernelIdeal.Frame
import proofs.«104447_j4827543241279_2_alg».proof.Proof.KernelRun
import proofs.«104447_j4827543241279_2_alg».proof.Proof.MaskRegion
import proofs.«104447_j4827543241279_2_alg».proof.Proof.ProductRegion
import proofs.«104447_j4827543241279_2_alg».proof.Proof.Spec
import Idealize.ShloMosaic.Lib.StableHlo.Run
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Idealize.ShloMosaic.StableHlo
open Cert.KernelIdeal Cert.KernelIdeal.Gen Cert.MaskedDense

variable (m : (ℓ : Loc nD τ sig) → Buf (Elt Ideal) ℓ) (ρ : Dev nD → PrngReg)

/-- The second launch finds the input as launched. -/
theorem entry_input (c : Dev nD) : V2 m ρ c main_arg0 = m ((c : Thread nD τ).loc main_arg0) := by
  dsimp only [V2, W2, hostOps1]
  after_results
  exact W1_of_ne m ρ c main_arg0 (by decide)

/-- The second launch finds, as its weight, the masked weight of the launched weight and mask. -/
theorem entry_weight (c : Dev nD) :
    V2 m ρ c main_v0 = maskedWeight (m ((c : Thread nD τ).loc main_arg1)) (m ((c : Thread nD τ).loc main_arg3)) := by
  dsimp only [V2, W2, hostOps1]
  after_results
  exact (W1_arr m ρ c 2).trans (Mask.final (V0 m ρ) c)

/-- The second launch finds, as its bias row, the launched bias laid out as one row. -/
theorem entry_bias (c : Dev nD) :
    V2 m ρ c main_v1 = fun j : S1x2048.Idx => m ((c : Thread nD τ).loc main_arg2) (ix1 (col j)) := by
  dsimp only [V2, W2, hostOps1]
  after_results
  refine funext fun (j : S1x2048.Idx) => ?_
  show shapeCast S1x2048 (W1 m ρ c (Proc.devRef .tc main_arg2)) shapeCasts_S2048_S1x2048 j = _
  rw [W1_of_ne m ρ c main_arg2 (by decide)]
  refine shapeCast_apply _ _ j (ix1 (col j)) ?_
  show (S2048.rowMajor (ix1 (col j))).val = (S1x2048.rowMajor j).val
  rw [Shape.rowMajor_val_one, Shape.rowMajor_val_two]
  have h0 : (j 0).val < 1 := (j 0).isLt
  show (j 1).val = (j 0).val * 2048 + (j 1).val
  omega

/-- The second launch leaves, in the result array, the masked dense layer of the four launched arguments. -/
theorem final (c : Dev nD) :
    (dat1 (V2 m ρ) c).arrAt 3 cfg1.N
      = maskedDense (m ((c : Thread nD τ).loc main_arg0)) (m ((c : Thread nD τ).loc main_arg1))
          (m ((c : Thread nD τ).loc main_arg3)) (m ((c : Thread nD τ).loc main_arg2)) := by
  rw [Product.final (V2 m ρ) c, entry_input m ρ c, entry_weight m ρ c, entry_bias m ρ c]
  exact denseRow_eq _ _ _

/-- Every weakly fair execution of the kernel's program terminates without a fault, with the result buffer at the
    masked dense layer of the launched arguments and the arguments unchanged. -/
theorem run : θ_run defs (onTc (τ := τ) (main (F := Ideal))) ⟨m, fun _ => 0, ρ⟩ (fun r => ∀ c : Dev nD,
      r.2.mem ((c.tc : Thread nD τ).loc main_v2)
        = maskedDense (m ((c.tc : Thread nD τ).loc main_arg0)) (m ((c.tc : Thread nD τ).loc main_arg1))
            (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m ρ c), (h c).2⟩) (Out.run_out m ρ)

end Cert.KernelIdeal.Whole

end
-- ==== Proof.lean ====
/-
  A masked dense layer: out = inputs · (weight ⊙ mask) + bias, with inputs 8192 × 4096, weight and mask
  4096 × 2048, bias 2048.

  The kernel computes it in two launches. The first multiplies weight and mask entry by entry, 512 rows at a
  time, into a narrower float format — the identity on extended reals. The second multiplies 256 rows of the
  input at a time by the whole masked weight into a zero accumulator and adds the bias row. The reference
  multiplies weight and mask, takes one matrix product and adds the broadcast bias. On the extended reals both
  are, at row p and column q,

      (∑ k < 4096, inputs (p, k) · (weight (k, q) · mask (k, q))) + bias q

  (`Cert.MaskedDense.maskedDense`): the tiling of the rows changes nothing, a product into a zero accumulator is
  the plain sum, and no term is moved across a sum or a product, so the finiteness of the inputs is never used.

  The three programs' runs (termination, no fault, arguments unchanged) are the generated frames; the reference's
  is its generated run with the result dropped. The idealized kernel is the kernel's own text read at the ideal
  values — no rewrite was applied — so that conjunct is `True`.
-/
import proofs.«104447_j4827543241279_2_alg».proof.Defs
import proofs.«104447_j4827543241279_2_alg».proof.Proof.Gen.Kernel
import proofs.«104447_j4827543241279_2_alg».proof.Proof.Gen.Kernel.Skeleton
import proofs.«104447_j4827543241279_2_alg».proof.Proof.Gen.Kernel.Launch
import proofs.«104447_j4827543241279_2_alg».proof.Proof.Gen.Kernel.Points
import proofs.«104447_j4827543241279_2_alg».proof.Proof.Gen.Kernel.Frame
import proofs.«104447_j4827543241279_2_alg».proof.Proof.Gen.KernelIdeal
import proofs.«104447_j4827543241279_2_alg».proof.Proof.Gen.KernelIdeal.Skeleton
import proofs.«104447_j4827543241279_2_alg».proof.Proof.Gen.KernelIdeal.Launch
import proofs.«104447_j4827543241279_2_alg».proof.Proof.Gen.KernelIdeal.Points
import proofs.«104447_j4827543241279_2_alg».proof.Proof.Gen.KernelIdeal.Frame
import proofs.«104447_j4827543241279_2_alg».proof.Proof.Gen.ReferenceIdeal
import proofs.«104447_j4827543241279_2_alg».proof.Proof.Gen.ReferenceIdeal.Run
import proofs.«104447_j4827543241279_2_alg».proof.Proof.Gen.ReferenceIdeal.Read
import proofs.«104447_j4827543241279_2_alg».proof.Proof.Gen.Pre_finite_inputs
import proofs.«104447_j4827543241279_2_alg».proof.Proof.Spec
import proofs.«104447_j4827543241279_2_alg».proof.Proof.RefSide
import proofs.«104447_j4827543241279_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the four arguments, the idealized kernel and the idealized reference both run and
    both leave the masked dense layer of those arguments in their result. -/
theorem algebraic : Cert.algebraic_KernelIdeal_ReferenceIdeal := by
  intro m ρ m' ρ' _ hagree
  refine ⟨fun c => Cert.MaskedDense.maskedDense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
